-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S16384 .f32) (main_arg1 : FVec F S16384 .f32) : IVec S_ 1 :=
  let main_v0 : FVec F S16384 .f32 := Host.absf main_arg0
  let main_cst : FVec F S_ .f32 := constant S_ .f32 0x7F800000#32
  let main_v1 : FVec F S16384 .f32 := broadcastInDim S16384 ![] bcast_S_S16384 main_cst
  let main_v2 : IVec S16384 1 := cmpf .olt main_v0 main_v1
  let main_c : IVec S_ 1 := constantI S_ 1 1#1
  let main_v3 : IVec S_ 1 := (fun x v => Host.reduce IntOp.andi x v reducesTo_S16384_S_d0 h_S_) main_v2 main_c
  let main_v4 : FVec F S16384 .f32 := Host.absf main_arg1
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  main_v8
-- ==== Kernel.lean ====
abbrev S16384 : Shape := ⟨1, ![16384]⟩
abbrev S_ : Shape := ⟨0, ![]⟩
abbrev S16384x1 : Shape := ⟨2, ![16384, 1]⟩
abbrev S1x16384 : Shape := ⟨2, ![1, 16384]⟩
abbrev S512x1 : Shape := ⟨2, ![512, 1]⟩
abbrev S1x4096 : Shape := ⟨2, ![1, 4096]⟩
abbrev S512x4096 : Shape := ⟨2, ![512, 4096]⟩
abbrev S512 : Shape := ⟨1, ![512]⟩

abbrev nBuf : Space → Nat
  | .hbm => 21
  | .vmem => 7
  | .smem => 0
  | _ => 0

abbrev bufTy : (tb : Table) → Fin (tcTables nBuf tb) → BufTy
  | .hbm, ⟨0, _⟩ => ⟨S16384, .f32⟩
  | .hbm, ⟨1, _⟩ => ⟨S16384, .f32⟩
  | .hbm, ⟨2, _⟩ => ⟨S16384, .f32⟩
  | .hbm, ⟨3, _⟩ => ⟨S_, .f32⟩
  | .hbm, ⟨4, _⟩ => ⟨S16384, .f32⟩
  | .hbm, ⟨5, _⟩ => ⟨S16384, .i1⟩
  | .hbm, ⟨6, _⟩ => ⟨S16384, .f32⟩
  | .hbm, ⟨7, _⟩ => ⟨S16384, .f32⟩
  | .hbm, ⟨8, _⟩ => ⟨S16384x1, .f32⟩
  | .hbm, ⟨9, _⟩ => ⟨S1x16384, .f32⟩
  | .hbm, ⟨10, _⟩ => ⟨S1x16384, .f32⟩
  | .hbm, ⟨11, _⟩ => ⟨S16384x1, .f32⟩
  | .hbm, ⟨12, _⟩ => ⟨S16384, .f32⟩
  | .hbm, ⟨13, _⟩ => ⟨S16384, .f32⟩
  | .hbm, ⟨14, _⟩ => ⟨S16384, .f32⟩
  | .hbm, ⟨15, _⟩ => ⟨S16384, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S512x1, .f32⟩
  | .local _ .vmem, ⟨1, _⟩ => ⟨S512x1, .f32⟩
  | .local _ .vmem, ⟨2, _⟩ => ⟨S1x16384, .f32⟩
  | .local _ .vmem, ⟨3, _⟩ => ⟨S1x16384, .f32⟩
  | .local _ .vmem, ⟨4, _⟩ => ⟨S512x1, .f32⟩
  | .local _ .vmem, ⟨5, _⟩ => ⟨S512x1, .f32⟩
  | .local _ .vmem, ⟨6, _⟩ => ⟨S512x1, .f32⟩
  | _, _ => ⟨S16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![32, 4], ![false, false]⟩

def k0_mult1 (i : grid0.Coords) : BitVec 32 :=
  let arg1 : BitVec 32 := BitVec.ofNat 32 (i 1).val
  let c4096_i32 : BitVec 32 := 4096#32
  let v5 : BitVec 32 := Scalar.muli arg1 c4096_i32
  v5
def k0_off1 (i : grid0.Coords) : Fin 2 → Nat :=
  let c0_2 : Index := 0#32
  let arg1 : BitVec 32 := BitVec.ofNat 32 (i 1).val
  let c4096_i32 : BitVec 32 := 4096#32
  let v5 : BitVec 32 := Scalar.muli arg1 c4096_i32
  let v6 : BitVec 32 := v5
  let v7 : Index := Scalar.indexCast v6
  ![0, v7.toNat]
def k0_cond2 (i : grid0.Coords) : BitVec 1 :=
  let arg1 : BitVec 32 := BitVec.ofNat 32 (i 1).val
  let c3_i32 : BitVec 32 := 3#32
  let v27 : BitVec 1 := Scalar.cmpi .eq arg1 c3_i32
  let v28 : BitVec 32 := Scalar.extui v27
  let c0_i32_9 : BitVec 32 := 0#32
  let v29 : BitVec 1 := Scalar.cmpi .ne v28 c0_i32_9
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x16384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S16384 : S_.BroadcastsInDim S16384 (![] : Fin 0 → Fin S16384.rank)
  shapeCasts_S16384_S16384x1 : S16384.ShapeCasts S16384x1
  shapeCasts_S16384_S1x16384 : S16384.ShapeCasts S1x16384
  inb_S512x1_S512x1_0_0 : ∀ a, (![0, 0] : Fin 2 → Nat) a + S512x1.size a ≤ S512x1.size a
  h_S512x1 : 0 < S512x1.numel
  shapeCasts_S512x1_S512x1 : S512x1.ShapeCasts S512x1
  h_S1x4096 : 0 < S1x4096.numel
  shapeCasts_S1x4096_S1x4096 : S1x4096.ShapeCasts S1x4096
  broadcasts_S1x4096_S512x4096 : S1x4096.Broadcasts S512x4096
  broadcasts_S512x1_S512x4096 : S512x1.Broadcasts S512x4096
  reduces_S512x4096_S512 : S512x4096.Reduces [1] S512
  shapeCasts_S512_S512x1 : S512.ShapeCasts S512x1
  shapeCasts_S16384x1_S16384 : S16384x1.ShapeCasts S16384
  reducesTo_S16384_S_d0 : S16384.ReducesTo [0] S_
  h_S_ : 0 < S_.numel
  hrank0 : 0 < grid0.rank
  k0_mult1_dvd : ∀ i : grid0.Coords, 128 ∣ (k0_mult1 i).toNat
  k0_off1_inb : ∀ i : grid0.Coords, ∀ a, (k0_off1 i) a + S1x4096.size a ≤ S1x16384.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S16384x1.size a
  hwx0_0 : ∀ i : grid0.Coords, EltTy.bits .f32 = 32 ∨ (Rect.block (s := S16384x1) S512x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x16384.size a ≤ S1x16384.size a
  hwx0_1 : ∀ i : grid0.Coords, EltTy.bits .f32 = 32 ∨ (Rect.block (s := S1x16384) S1x16384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16384.size a ≤ S1x16384.size a
  hwx0_2 : ∀ i : grid0.Coords, EltTy.bits .f32 = 32 ∨ (Rect.block (s := S1x16384) S1x16384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S16384x1.size a
  hwx0_3 : ∀ i : grid0.Coords, EltTy.bits .f32 = 32 ∨ (Rect.block (s := S16384x1) S512x1.size (cc0_transform_3 i) (hinb0_3 i)).WholeWords (EltTy.packing .f32)

variable [Facts₀]

abbrev win0_0 : Pipeline.Window sig grid0 :=
  Pipeline.Window.ofSpec (Memref.whole main_v5) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1x16384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x16384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16384 : Shape := ⟨1, ![16384]⟩
abbrev S_ : Shape := ⟨0, ![]⟩
abbrev S1x16384 : Shape := ⟨2, ![1, 16384]⟩
abbrev S16384x1 : Shape := ⟨2, ![16384, 1]⟩
abbrev S16384x16384 : Shape := ⟨2, ![16384, 16384]⟩

abbrev nBuf : Space → Nat
  | .hbm => 27
  | .vmem => 0
  | .smem => 0
  | _ => 0

abbrev bufTy : (tb : Table) → Fin (tcTables nBuf tb) → BufTy
  | .hbm, ⟨0, _⟩ => ⟨S16384, .f32⟩
  | .hbm, ⟨1, _⟩ => ⟨S16384, .f32⟩
  | .hbm, ⟨2, _⟩ => ⟨S16384, .f32⟩
  | .hbm, ⟨3, _⟩ => ⟨S_, .f32⟩
  | .hbm, ⟨4, _⟩ => ⟨S16384, .f32⟩
  | .hbm, ⟨5, _⟩ => ⟨S16384, .i1⟩
  | .hbm, ⟨6, _⟩ => ⟨S16384, .f32⟩
  | .hbm, ⟨7, _⟩ => ⟨S16384, .f32⟩
  | .hbm, ⟨8, _⟩ => ⟨S1x16384, .f32⟩
  | .hbm, ⟨9, _⟩ => ⟨S16384x1, .f32⟩
  | .hbm, ⟨10, _⟩ => ⟨S16384x16384, .f32⟩
  | .hbm, ⟨11, _⟩ => ⟨S16384x16384, .f32⟩
  | .hbm, ⟨12, _⟩ => ⟨S16384x16384, .i1⟩
  | .hbm, ⟨13, _⟩ => ⟨S16384x16384, .f32⟩
  | .hbm, ⟨14, _⟩ => ⟨S1x16384, .f32⟩
  | .hbm, ⟨15, _⟩ => ⟨S16384x16384, .f32⟩
  | .hbm, ⟨16, _⟩ => ⟨S16384x16384, .f32⟩
  | .hbm, ⟨17, _⟩ => ⟨S_, .f32⟩
  | .hbm, ⟨18, _⟩ => ⟨S16384, .f32⟩
  | .hbm, ⟨19, _⟩ => ⟨S16384, .f32⟩
  | .hbm, ⟨20, _⟩ => ⟨S16384, .f32⟩
  | .hbm, ⟨21, _⟩ => ⟨S16384, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | _, _ => ⟨S16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S1x16384_1 : S16384.BroadcastsInDim S1x16384 (![1] : Fin 1 → Fin S1x16384.rank)
  bcast_S16384_S16384x1_0 : S16384.BroadcastsInDim S16384x1 (![0] : Fin 1 → Fin S16384x1.rank)
  bcast_S1x16384_S16384x16384_0_1 : S1x16384.BroadcastsInDim S16384x16384 (![0, 1] : Fin 2 → Fin S16384x16384.rank)
  bcast_S16384x1_S16384x16384_0_1 : S16384x1.BroadcastsInDim S16384x16384 (![0, 1] : Fin 2 → Fin S16384x16384.rank)
  reducesTo_S16384x16384_S16384_d1 : S16384x16384.ReducesTo [1] S16384
  h_S_ : 0 < S_.numel
  reducesTo_S16384_S_d0 : S16384.ReducesTo [0] S_

variable [Facts₀]

class Facts : Prop extends Facts₀ where

variable [Facts]
-- ==== Proof.Cases.lean ====
/-
  What one grid point of the kernel leaves, by control case. Every point adds to a running column, row by row, the sum
  over the point's 4096 keys of the weights whose time is at least the row's time. The first point of a row block starts
  the column from zero, the later ones continue from what the point before left, and the last one also copies the column
  into the output block. Each statement below reads the stores one case makes back as that one value.
-/
import proofs.«119896_j36077725286567_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Risk

open Cert.KernelIdeal Cert.KernelIdeal.Gen

variable {F : FTy → Type} [FloatOps F]

theorem zero_offsets : (![0, 0] : Fin 2 → Nat) = fun _ => 0 := funext fun a => by fin_cases a <;> rfl

/-- The keys of grid point `i`: the 4096 columns of a full row that start at column `4096 · i₁`. -/
abbrev keyWindow (i : grid0.Coords) : Rect S1x16384 :=
  Rect.unit (s := S1x16384) (k0_off1 i) S1x4096.size (k0_off1_inb i)

/-- One step of the running column at grid point `i`: to `acc` is added, in each row, the sum over the point's keys of
    the weights (`e`) whose time (`tRow`) is at least the row's time (`tCol`). -/
abbrev step (i : grid0.Coords) (tCol : Vec F S512x1 .f32) (tRow e : Vec F S1x16384 .f32) (acc : Vec F S512x1 .f32) :
    Vec F S512x1 .f32 :=
  k0_pay2 tCol (View.ld tRow (keyWindow i)) (View.ld e (keyWindow i)) acc

/-- The first point of a row block leaves, in the carried column, one step from the zero column. -/
theorem first_point_column (c : Dev nD) (i : grid0.Coords) (a2 : Memref sig .tc .vmem S512x1 .f32) (h2 : a2.IsWhole) (a3 : Memref sig .tc .vmem S1x16384 .f32) (h3 : a3.IsWhole) (a4 : Memref sig .tc .vmem S1x16384 .f32) (h4 : a4.IsWhole) (a5 : Memref sig .tc .vmem S512x1 .f32) (h5 : a5.IsWhole) (a6 : Memref sig .tc .vmem S512x1 .f32) (h6 : a6.IsWhole) (hc0 : cond0_0 i) (hc1 : ¬cond0_1 i)
    (x0 : Vec F S512x1 .f32) (x1 : Vec F S1x16384 .f32) (x2 : Vec F S1x16384 .f32) :
    sout0_A_0 c i a2 h2 a3 h3 a4 h4 a5 h5 a6 h6 hc0 hc1 x0 x1 x2 = step i x0 x1 x2 k0_pay1 := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S512x1) zero_offsets, View.readCov_unit_zero (S := S512x1) _ zero_offsets]
  simp only [View.readAt_eq_ld, h2.read_unread, h3.read_unread, h4.read_unread,
    View.ld_unit_zero (S := S512x1) zero_offsets]
  rfl

/-- A middle point leaves one step from what the point before left. -/
theorem middle_point_column (c : Dev nD) (i : grid0.Coords) (a2 : Memref sig .tc .vmem S512x1 .f32) (h2 : a2.IsWhole) (a3 : Memref sig .tc .vmem S1x16384 .f32) (h3 : a3.IsWhole) (a4 : Memref sig .tc .vmem S1x16384 .f32) (h4 : a4.IsWhole) (a5 : Memref sig .tc .vmem S512x1 .f32) (h5 : a5.IsWhole) (a6 : Memref sig .tc .vmem S512x1 .f32) (h6 : a6.IsWhole) (hc0 : ¬cond0_0 i) (hc1 : ¬cond0_1 i)
    (x0 : Vec F S512x1 .f32) (x1 : Vec F S1x16384 .f32) (x2 : Vec F S1x16384 .f32) (xs0 : Vec F S512x1 .f32) :
    sout0_B_0 c i a2 h2 a3 h3 a4 h4 a5 h5 a6 h6 hc0 hc1 x0 x1 x2 xs0 = step i x0 x1 x2 xs0 := by
  unfold sout0_B_0
  rw [View.read_writes_eq_canon _ _ _ (scover0_B_0 c i a2 h2 a3 h3 a4 h4 a5 h5 a6 h6 hc0 hc1 x0 x1 x2 xs0)]
  unfold kernelRun0_B
  dsimp only
  sl_unfold_words
  rw [View.canon_unit_zero (S := S512x1) zero_offsets]
  simp only [View.readAt_eq_ld, h2.read_unread, h3.read_unread, h4.read_unread, h6.read_unread,
    View.ld_unit_zero (S := S512x1) zero_offsets]
  rfl

/-- The last point of a row block leaves the same step in the carried column … -/
theorem last_point_column (c : Dev nD) (i : grid0.Coords) (a2 : Memref sig .tc .vmem S512x1 .f32) (h2 : a2.IsWhole) (a3 : Memref sig .tc .vmem S1x16384 .f32) (h3 : a3.IsWhole) (a4 : Memref sig .tc .vmem S1x16384 .f32) (h4 : a4.IsWhole) (a5 : Memref sig .tc .vmem S512x1 .f32) (h5 : a5.IsWhole) (a6 : Memref sig .tc .vmem S512x1 .f32) (h6 : a6.IsWhole) (hc0 : ¬cond0_0 i) (hc1 : cond0_1 i)
    (x0 : Vec F S512x1 .f32) (x1 : Vec F S1x16384 .f32) (x2 : Vec F S1x16384 .f32) (xs0 : Vec F S512x1 .f32) :
    sout0_C_0 c i a2 h2 a3 h3 a4 h4 a5 h5 a6 h6 hc0 hc1 x0 x1 x2 xs0 = step i x0 x1 x2 xs0 := by
  unfold sout0_C_0
  rw [View.read_writes_eq_canon _ _ _ (scover0_C_0 c i a2 h2 a3 h3 a4 h4 a5 h5 a6 h6 hc0 hc1 x0 x1 x2 xs0)]
  unfold kernelRun0_C
  dsimp only
  sl_unfold_words
  rw [View.canon_unit_zero (S := S512x1) zero_offsets]
  simp only [View.readAt_eq_ld, h2.read_unread, h3.read_unread, h4.read_unread, h6.read_unread,
    View.ld_unit_zero (S := S512x1) zero_offsets]
  rfl

/-- … and copies it into the output block: the block is the carried column read back after the step's store. -/
theorem last_point_output (c : Dev nD) (i : grid0.Coords) (a2 : Memref sig .tc .vmem S512x1 .f32) (h2 : a2.IsWhole) (a3 : Memref sig .tc .vmem S1x16384 .f32) (h3 : a3.IsWhole) (a4 : Memref sig .tc .vmem S1x16384 .f32) (h4 : a4.IsWhole) (a5 : Memref sig .tc .vmem S512x1 .f32) (h5 : a5.IsWhole) (a6 : Memref sig .tc .vmem S512x1 .f32) (h6 : a6.IsWhole) (hc0 : ¬cond0_0 i) (hc1 : cond0_1 i)
    (x0 : Vec F S512x1 .f32) (x1 : Vec F S1x16384 .f32) (x2 : Vec F S1x16384 .f32) (xs0 : Vec F S512x1 .f32) :
    out0_C_3 c i a2 h2 a3 h3 a4 h4 a5 h5 a6 h6 hc0 hc1 x0 x1 x2 xs0 = step i x0 x1 x2 xs0 := by
  unfold out0_C_3
  rw [View.read_writes_eq_canon _ _ _ (cover0_C_3 c i a2 h2 a3 h3 a4 h4 a5 h5 a6 h6 hc0 hc1 x0 x1 x2 xs0)]
  unfold kernelRun0_C
  dsimp only
  sl_unfold_words
  rw [View.canon_unit_zero (S := S512x1) zero_offsets, View.readCov_unit_zero (S := S512x1) _ zero_offsets]
  simp only [View.readAt_eq_ld, h2.read_unread, h3.read_unread, h4.read_unread, h6.read_unread,
    View.ld_unit_zero (S := S512x1) zero_offsets]
  rfl

end Cert.KernelIdeal.Risk

end
-- ==== Proof.LibColumnLayout.lean ====
/-
  Column vectors read at an index: a length-`a` vector viewed as an `[a, 1]` column and back, and a column repeated
  along the second axis. Row-major position is preserved by the two casts (the unit axis contributes nothing to it), and
  a broadcast reads a unit axis of its operand at coordinate zero.
-/
import Idealize.ShloMosaic.Lib.ValueIdx
import Idealize.ShloMosaic.Lib.Pipeline.Value

noncomputable section

namespace Cert.ColumnLayout

open Idealize.ShloMosaic Idealize.ShloMosaic.ValueIdx

variable {α : Type}

/-- An `[a]` array cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.ColumnLayout

end
-- ==== Proof.StepAt.lean ====
/-
  One step of the running column read at a row, on the extended reals: entry `r` of the new column is the old entry
  plus the sum, over the 4096 keys `l` of the step, of the key's weight where the key's time is at least row `r`'s
  time and of the zero word elsewhere. The two row vectors (the keys' times and weights) are repeated over the 512 rows,
  the column of row times over the 4096 keys, and the sum runs along the keys.
-/
import proofs.«119896_j36077725286567_2_alg».proof.Proof.Gen.KernelIdeal.Skeleton
import proofs.«119896_j36077725286567_2_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Risk

open Cert.KernelIdeal Cert.KernelIdeal.Gen Cert.ColumnLayout

/-- Every entry of the column a row block starts from is the zero word. -/
theorem zero_column_apply (y : S512x1.Idx) : k0_pay1 (F := Ideal) y = Ideal.ofBits .f32 0x00000000#32 := by
  unfold k0_pay1
  simp only [shapeCast_self]
  rfl

/-- Entry `r` of one step: the old entry plus the sum over the step's keys of the weights whose time is at least
    the row's time. -/
theorem step_apply (tCol : Vec Ideal S512x1 .f32) (tKeys eKeys : Vec Ideal S1x4096 .f32) (acc : Vec Ideal S512x1 .f32)
    (r : Fin 512) :
    k0_pay2 (F := Ideal) tCol tKeys eKeys acc (ix2 r (0 : Fin 1))
      = acc (ix2 r (0 : Fin 1))
        + ∑ l : Fin 4096, Scalar.select (Ideal.cmp .oge (tKeys (ix2 (0 : Fin 1) l)) (tCol (ix2 r (0 : Fin 1))))
            (eKeys (ix2 (0 : Fin 1) l)) (Ideal.ofBits .f32 0x00000000#32) := by
  unfold k0_pay2
  simp only [shapeCast_self]
  refine congrArg (acc (ix2 r (0 : Fin 1)) + ·) ?_
  refine (shapeCast_a_a1_apply _ shapeCasts_S512_S512x1 r (0 : Fin 1)).trans ?_
  refine (Ideal.multiReduction_add_single _ 0x00000000#32 reduces_S512x4096_S512 (.inl rfl) rfl (ix1 r)).trans ?_
  refine Finset.sum_congr rfl fun (l : Fin 4096) _ => ?_
  have hl : reduces_S512x4096_S512.lift (ix1 r) l = ix2 r l :=
    funext fun a => Fin.ext (by match a with | ⟨0, _⟩ => rfl | ⟨1, _⟩ => rfl)
  rw [hl, select_apply, cmpf_apply, broadcastTo_1b_ab_apply, broadcastTo_1b_ab_apply, broadcastTo_a1_ab_apply,
    broadcast_apply]
  rfl

end Cert.KernelIdeal.Risk

end
-- ==== Proof.RiskSpec.lean ====
/-
  The risk-set sum as one function of the time and weight arrays, on the extended reals. Entry `i` is the sum over all
  16384 keys `k` of the weight `e k` where the time `T k` is at least `T i`, and of zero elsewhere. Two ways of
  arriving at it are related here: a weight multiplied by the comparison's 0/1 value is that term (`x · 1 = x` and
  `x · 0 = 0` hold for every extended real, the infinities included), and the sum over all keys is the sum over four
  consecutive blocks of 4096 keys, accumulated one block after the other from zero (addition of extended reals is
  commutative and associative, so neither the grouping nor the order matters).
-/
import Idealize.ShloMosaic.PureOps.Ideal
import Idealize.ShloMosaic.PureOps.Ideal.Laws
import Idealize.ShloMosaic.Lib.ValueIdx

noncomputable section

namespace Cert.RiskSpec

open Idealize.ShloMosaic

/-- One term of a risk-set sum: the weight `w` when the key's time is at least the row's time, zero otherwise. -/
def hit (tKey tRow w : EReal) : EReal := Scalar.select (Ideal.cmp .oge tKey tRow) w 0

/-- The risk-set sum of row `i`. -/
def risk (T e : Fin 16384 → EReal) (i : Fin 16384) : EReal := ∑ k : Fin 16384, hit (T k) (T i) (e k)

/-- A weight times the comparison's 0/1 value is the term: `w · 1 = w`, `w · 0 = 0`. -/
theorem mul_indicator (a b w : EReal) : w * (((Ideal.cmp .oge a b).toNat : ℝ) : EReal) = hit a b w := by
  unfold hit Scalar.select
  rcases BitVec.eq_zero_or_eq_one (Ideal.cmp .oge a b) with h | h
  · rw [h, if_neg (by decide)]; simp
  · rw [h, if_pos (by decide)]; simp

/-- Key `l` of block `b`: number `4096 · b + l` (taken modulo 16384 so that it is a key for every `b`; for the four
    blocks there are, `b < 4`, nothing wraps). -/
def keyOf (b : ℕ) (l : Fin 4096) : Fin 16384 := ⟨(4096 * b + l.val) % 16384, Nat.mod_lt _ (by decide)⟩

theorem keyOf_val (b : ℕ) (hb : b < 4) (l : Fin 4096) : (keyOf b l).val = 4096 * b + l.val := by
  have := l.isLt
  show (4096 * b + l.val) % 16384 = _
  omega

/-- The part of row `i`'s sum that block `b` contributes. -/
def blockSum (T e : Fin 16384 → EReal) (i : Fin 16384) (b : ℕ) : EReal :=
  ∑ l : Fin 4096, hit (T (keyOf b l)) (T i) (e (keyOf b l))

/-- The sum after blocks `0 … j`, accumulated from zero one block after the other. -/
def partialRisk (T e : Fin 16384 → EReal) (i : Fin 16384) : ℕ → EReal
  | 0 => 0 + blockSum T e i 0
  | j + 1 => partialRisk T e i j + blockSum T e i (j + 1)

/-- A sum over the 16384 keys is the sum over the four blocks of the sums over each block's 4096 keys. -/
theorem sum_blocks (g : Fin 16384 → EReal) :
    ∑ k : Fin 16384, g k = ∑ b : Fin 4, ∑ l : Fin 4096, g (keyOf b.val l) := by
  rw [← Fintype.sum_prod_type' (fun (b : Fin 4) (l : Fin 4096) => g (keyOf b.val l))]
  refine (Fintype.sum_equiv (finProdFinEquiv (m := 4) (n := 4096)) (fun x => g (keyOf x.1.val x.2)) g (fun x => ?_)).symm
  refine congrArg g (Fin.ext ?_)
  rw [keyOf_val _ x.1.isLt, finProdFinEquiv_apply_val]
  omega

/-- After the fourth block the accumulated sum is the whole risk-set sum. -/
theorem partialRisk_three (T e : Fin 16384 → EReal) (i : Fin 16384) : partialRisk T e i 3 = risk T e i := by
  unfold risk
  rw [sum_blocks, Fin.sum_univ_four]
  simp only [partialRisk, blockSum, zero_add]
  rfl

/-! ## The two arrays the sums are taken over, as functions of the program's two arguments -/

/-- The observed time of key `k`: the absolute value of the second argument's entry. -/
def timesOf (y : (⟨1, ![16384]⟩ : Shape).Idx → EReal) (k : Fin 16384) : EReal :=
  FloatOps.hostAbsf (F := Ideal) (φ := .f32) (y (ValueIdx.ix1 k))

/-- The weight of key `k`: the exponential of the first argument's entry. -/
def weightsOf (yhat : (⟨1, ![16384]⟩ : Shape).Idx → EReal) (k : Fin 16384) : EReal :=
  FloatOps.hostUnary (F := Ideal) (φ := .f32) .exp (yhat (ValueIdx.ix1 k))

/-- The vector of risk-set sums. -/
def riskOf (yhat y : (⟨1, ![16384]⟩ : Shape).Idx → EReal) : (⟨1, ![16384]⟩ : Shape).Idx → EReal :=
  fun i => risk (timesOf y) (weightsOf yhat) ⟨(i 0).val, (i 0).isLt⟩

/-! ## From the sums to the loss: the part both programs share -/

theorem scalar_broadcasts : (⟨0, ![]⟩ : Shape).BroadcastsInDim ⟨1, ![16384]⟩ (![] : Fin 0 → Fin 1) := by decide
theorem vector_reduces : (⟨1, ![16384]⟩ : Shape).ReducesTo [0] ⟨0, ![]⟩ := by decide
theorem scalar_pos : 0 < (⟨0, ![]⟩ : Shape).numel := by decide

/-- From a vector `r` of risk-set sums and a vector `ev` of event indicators to the loss: minus the mean, over the
    16384 entries, of `(ŷ − log r) · ev`. Both programs end in exactly these operations, so it is never opened. -/
def lossFrom (yhat ev r : FVec Ideal ⟨1, ![16384]⟩ .f32) : FVec Ideal ⟨0, ![]⟩ .f32 :=
  Host.negf (F := Ideal) (Host.divf (F := Ideal)
    (Host.reduceAdd (F := Ideal) (mulf (subf yhat (Host.log (F := Ideal) r)) ev)
      (constant (F := Ideal) ⟨0, ![]⟩ .f32 0x00000000#32) vector_reduces scalar_pos)
    (constant (F := Ideal) ⟨0, ![]⟩ .f32 0x46800000#32))

/-- The event indicators: one where the second argument is positive, zero elsewhere. -/
def eventsOf (y : FVec Ideal ⟨1, ![16384]⟩ .f32) : FVec Ideal ⟨1, ![16384]⟩ .f32 :=
  uitofp .f32 (cmpf .ogt y (broadcastInDim ⟨1, ![16384]⟩ ![] scalar_broadcasts (constant (F := Ideal) ⟨0, ![]⟩ .f32 0x00000000#32)))

/-- The loss from the two arguments and a vector `r` of risk-set sums. -/
def lossOf (yhat y r : FVec Ideal ⟨1, ![16384]⟩ .f32) : FVec Ideal ⟨0, ![]⟩ .f32 := lossFrom yhat (eventsOf y) r

end Cert.RiskSpec

end
-- ==== Proof.Blocks.lean ====
/-
  What the kernel's windows hold. Before the region the program takes absolute values of the second argument (the
  times) and exponentials of the first (the weights), and lays the times out twice, as a column and as a row, and the
  weights as a row. The column window's block at a grid point is 512 consecutive rows of the times column; the two row
  windows' blocks are the whole rows, of which the body reads the 4096 keys of the point. Read at an index, every one
  of them is the time or the weight of one key.
-/
import proofs.«119896_j36077725286567_2_alg».proof.Proof.Gen.KernelIdeal.Frame
import proofs.«119896_j36077725286567_2_alg».proof.Proof.Cases
import proofs.«119896_j36077725286567_2_alg».proof.Proof.LibColumnLayout
import proofs.«119896_j36077725286567_2_alg».proof.Proof.RiskSpec
import Idealize.ShloMosaic.Lib.ValueIdx
import Idealize.ShloMosaic.Lib.ValueLayout
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.KernelIdeal.Risk

open Cert.KernelIdeal Cert.KernelIdeal.Gen Cert.ColumnLayout Cert.RiskSpec

/-! ## The arrays the region finds -/

section AnyInstance

variable {F : FTy → Type} [FloatOps F]
variable (m : (ℓ : Loc nD τ sig) → Buf (Elt F) ℓ)

/-- The times as a column. -/
theorem col_times (c : Dev nD) : (V m c main_v5 : S16384x1.Idx → F .f32)
    = shapeCast S16384x1 (Host.absf (m ((c : Thread nD τ).loc main_arg1))) shapeCasts_S16384_S16384x1 := by
  show StableHlo.after hostOps0 (fun b => m (c, b)) (Proc.devRef .tc main_v5) = _
  after_results
  rfl

/-- The times as a row. -/
theorem row_times (c : Dev nD) : (V m c main_v6 : S1x16384.Idx → F .f32)
    = shapeCast S1x16384 (Host.absf (m ((c : Thread nD τ).loc main_arg1))) shapeCasts_S16384_S1x16384 := by
  show StableHlo.after hostOps0 (fun b => m (c, b)) (Proc.devRef .tc main_v6) = _
  after_results
  rfl

/-- The weights as a row. -/
theorem row_weights (c : Dev nD) : (V m c main_v7 : S1x16384.Idx → F .f32)
    = shapeCast S1x16384 (Host.exp (m ((c : Thread nD τ).loc main_arg0))) shapeCasts_S16384_S1x16384 := by
  show StableHlo.after hostOps0 (fun b => m (c, b)) (Proc.devRef .tc main_v7) = _
  after_results
  rfl

/-- The event indicators: one where the second argument is positive. -/
theorem event_mask (c : Dev nD) : (V m c main_v3 : S16384.Idx → F .f32)
    = uitofp .f32 (cmpf .ogt (m ((c : Thread nD τ).loc main_arg1))
        (broadcastInDim S16384 ![] bcast_S_S16384 (constant (F := F) S_ .f32 0x00000000#32))) := by
  show StableHlo.after hostOps0 (fun b => m (c, b)) (Proc.devRef .tc main_v3) = _
  after_results

/-- Where each window's block sits at grid point `t` (row block `t / 4` for the column and the output, the one whole
    block for the rows), and which of the four key blocks the point reads (`t mod 4`). -/
theorem point_facts : ∀ t : Fin cfg0.N, win0_0.index t (0 : Fin 2) = t.val / 4 ∧ win0_0.index t (1 : Fin 2) = 0
    ∧ win0_3.index t (0 : Fin 2) = t.val / 4 ∧ win0_3.index t (1 : Fin 2) = 0
    ∧ win0_1.index t (0 : Fin 2) = 0 ∧ win0_1.index t (1 : Fin 2) = 0
    ∧ win0_2.index t (0 : Fin 2) = 0 ∧ win0_2.index t (1 : Fin 2) = 0
    ∧ ((grid0.coords t) (1 : Fin 2)).val = t.val % 4 :=
  (by decide +kernel : ∀ t : Fin grid0.N, _)

/-- The column window's block at point `t`: row `r` of the block is row `512 · (t / 4) + r` of the column. -/
theorem col_block (c : Dev nD) (t : Fin cfg0.N) (y : S512x1.Idx) (k : Fin 16384) (hk : k.val = 512 * (t.val / 4) + (y 0).val) :
    (iblk m c 0 t : S512x1.Idx → F .f32) y = (V m c main_v5 : S16384x1.Idx → F .f32) (ix2 k (0 : Fin 1)) := by
  unfold iblk
  rw [View.read_apply]
  show (V m c main_v5 : S16384x1.Idx → F .f32) _ = _
  refine congrArg (V m c main_v5 : S16384x1.Idx → F .f32) (funext fun a => Fin.ext ?_)
  have h1 : (y 1).val = 0 := by have h : (y 1).val < 1 := (y 1).isLt; omega
  match a with
  | ⟨0, _⟩ => show win0_0.index t 0 * 512 + 1 * (y 0).val = k.val; rw [(point_facts t).1, hk]; omega
  | ⟨1, _⟩ => show win0_0.index t 1 * 1 + 1 * (y 1).val = 0; rw [(point_facts t).2.1, h1]

/-- The times row window's block is the whole row. -/
theorem times_row_block (c : Dev nD) (t : Fin cfg0.N) :
    (iblk m c 1 t : S1x16384.Idx → F .f32) = (V m c main_v6 : S1x16384.Idx → F .f32) := by
  funext y
  unfold iblk
  rw [View.read_apply]
  show (V m c main_v6 : S1x16384.Idx → F .f32) _ = _
  refine congrArg (V m c main_v6 : S1x16384.Idx → F .f32) (funext fun a => Fin.ext ?_)
  match a with
  | ⟨0, _⟩ => show win0_1.index t 0 * 1 + 1 * (y 0).val = (y 0).val; rw [(point_facts t).2.2.2.2.1]; omega
  | ⟨1, _⟩ => show win0_1.index t 1 * 16384 + 1 * (y 1).val = (y 1).val; rw [(point_facts t).2.2.2.2.2.1]; omega

/-- The weights row window's block is the whole row. -/
theorem weights_row_block (c : Dev nD) (t : Fin cfg0.N) :
    (iblk m c 2 t : S1x16384.Idx → F .f32) = (V m c main_v7 : S1x16384.Idx → F .f32) := by
  funext y
  unfold iblk
  rw [View.read_apply]
  show (V m c main_v7 : S1x16384.Idx → F .f32) _ = _
  refine congrArg (V m c main_v7 : S1x16384.Idx → F .f32) (funext fun a => Fin.ext ?_)
  match a with
  | ⟨0, _⟩ => show win0_2.index t 0 * 1 + 1 * (y 0).val = (y 0).val; rw [(point_facts t).2.2.2.2.2.2.1]; omega
  | ⟨1, _⟩ => show win0_2.index t 1 * 16384 + 1 * (y 1).val = (y 1).val; rw [(point_facts t).2.2.2.2.2.2.2.1]; omega

/-- A row read through grid point `i`'s key window: key `l` of the window is entry `4096 · i₁ + l` of the row. -/
theorem key_window_apply {Val : EltTy → Type} {e : EltTy} (X : S1x16384.Idx → Val e) (i : grid0.Coords) (l : Fin 4096)
    (k : Fin 16384) (hk : k.val = 4096 * (i 1).val + l.val) :
    (View.ld X (keyWindow i) : S1x4096.Idx → Val e) (ix2 (0 : Fin 1) l) = X (ix2 (0 : Fin 1) k) := by
  show X ((keyWindow i).idx (ix2 (0 : Fin 1) l)) = _
  refine congrArg X (funext fun a => Fin.ext ?_)
  match a with
  | ⟨0, _⟩ => show k0_off1 i 0 + 1 * 0 = 0; rw [k0_off1_eq]; rfl
  | ⟨1, _⟩ => show k0_off1 i 1 + 1 * l.val = k.val; rw [k0_off1_eq, hk]; show 4096 * (i 1).val + 1 * l.val = _; omega

end AnyInstance

/-! ## At the extended reals: each entry is a time or a weight of one key -/

variable (m : (ℓ : Loc nD τ sig) → Buf (Elt Ideal) ℓ)

/-- The time of key `k`, from the program's second argument. -/
abbrev times (c : Dev nD) : Fin 16384 → EReal := timesOf (m ((c : Thread nD τ).loc main_arg1))
/-- The weight of key `k`, from the program's first argument. -/
abbrev weights (c : Dev nD) : Fin 16384 → EReal := weightsOf (m ((c : Thread nD τ).loc main_arg0))

theorem col_times_apply (c : Dev nD) (k : Fin 16384) :
    (V m c main_v5 : S16384x1.Idx → Ideal .f32) (ix2 k (0 : Fin 1)) = times m c k := by
  rw [col_times]
  exact shapeCast_a_a1_apply _ shapeCasts_S16384_S16384x1 k (0 : Fin 1)

theorem row_times_apply (c : Dev nD) (k : Fin 16384) :
    (V m c main_v6 : S1x16384.Idx → Ideal .f32) (ix2 (0 : Fin 1) k) = times m c k := by
  rw [row_times]
  exact shapeCast_a_1a_apply _ shapeCasts_S16384_S1x16384 (0 : Fin 1) k

theorem row_weights_apply (c : Dev nD) (k : Fin 16384) :
    (V m c main_v7 : S1x16384.Idx → Ideal .f32) (ix2 (0 : Fin 1) k) = weights m c k := by
  rw [row_weights]
  exact shapeCast_a_1a_apply _ shapeCasts_S16384_S1x16384 (0 : Fin 1) k

end Cert.KernelIdeal.Risk

end
-- ==== Proof.Accum.lean ====
/-
  The running column over the grid. The 128 grid points come in runs of four: the points of one row block of 512 rows,
  one per block of 4096 keys. Read at a row, a point's step adds its key block's part of that row's risk-set sum; the
  first point of a run starts from zero. So after the point that handles key block `j` the column holds, for each of
  its rows, the sum over key blocks `0 … j`, and after the fourth point the whole sum, which that point also leaves
  in the output block.
-/
import proofs.«119896_j36077725286567_2_alg».proof.Proof.Gen.KernelIdeal.Frame
import proofs.«119896_j36077725286567_2_alg».proof.Proof.Cases
import proofs.«119896_j36077725286567_2_alg».proof.Proof.StepAt
import proofs.«119896_j36077725286567_2_alg».proof.Proof.Blocks
import proofs.«119896_j36077725286567_2_alg».proof.Proof.RiskSpec
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.KernelIdeal.Risk

open Cert.KernelIdeal Cert.KernelIdeal.Gen Cert.RiskSpec

variable (m : (ℓ : Loc nD τ sig) → Buf (Elt Ideal) ℓ)

/-- The row of the whole array that row `r` of grid point `t`'s row block is: `512 · (t / 4) + r`. -/
def rowOf (t : Fin cfg0.N) (r : Fin 512) : Fin 16384 :=
  ⟨512 * (t.val / 4) + r.val, by have := t.isLt; have hN : cfg0.N = 128 := N_0; have := r.isLt; omega⟩

/-- One step at grid point `t`, read at row `r`: the old entry plus key block `t mod 4`'s part of the row's sum. -/
theorem step_at_point (c : Dev nD) (t : Fin cfg0.N) (acc : Vec Ideal S512x1 .f32) (r : Fin 512) :
    step (grid0.coords t) (iblk m c 0 t) (iblk m c 1 t) (iblk m c 2 t) acc (ix2 r (0 : Fin 1))
      = acc (ix2 r (0 : Fin 1)) + blockSum (times m c) (weights m c) (rowOf t r) (t.val % 4) := by
  refine (step_apply (iblk m c 0 t) (View.ld (iblk m c 1 t) (keyWindow (grid0.coords t)))
    (View.ld (iblk m c 2 t) (keyWindow (grid0.coords t))) acc r).trans ?_
  refine congrArg (acc (ix2 r (0 : Fin 1)) + ·) ?_
  unfold blockSum
  refine Finset.sum_congr rfl fun l _ => ?_
  have hk : (keyOf (t.val % 4) l).val = 4096 * ((grid0.coords t) 1).val + l.val := by
    rw [(point_facts t).2.2.2.2.2.2.2.2, keyOf_val _ (Nat.mod_lt _ (by decide))]
  rw [times_row_block, weights_row_block, key_window_apply _ _ l _ hk, key_window_apply _ _ l _ hk,
    row_times_apply, row_weights_apply, col_block m c t (ix2 r (0 : Fin 1)) (rowOf t r) rfl, col_times_apply,
    Ideal.ofBits_zero_f32]
  rfl

/-- After the first point of a run the column holds key block 0's part, added to zero. -/
theorem column_first (c : Dev nD) (t : Fin cfg0.N) (h0 : t.val % 4 = 0) (r : Fin 512) :
    (outsAt0 m c t.val t.isLt).2 (ix2 r (0 : Fin 1)) = partialRisk (times m c) (weights m c) (rowOf t r) 0 := by
  have h1 : ¬t.val % 4 = 3 := by omega
  rw [outsAt0_A m c t h0 h1]
  dsimp only
  refine (congrFun (first_point_column c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) (ix2 r (0 : Fin 1))).trans ?_
  refine (step_at_point m c t (k0_pay1 (F := Ideal)) r).trans ?_
  rw [zero_column_apply, Ideal.ofBits_zero_f32, h0]
  rfl

/-- After a later point of a run the column holds what the point before left plus the point's key block's part. -/
theorem column_next (c : Dev nD) (t : Fin cfg0.N) (h0 : ¬t.val % 4 = 0) (r : Fin 512) :
    (outsAt0 m c t.val t.isLt).2 (ix2 r (0 : Fin 1))
      = (outsAt0 m c (t.val - 1) (Nat.lt_of_le_of_lt (Nat.sub_le _ _) t.isLt)).2 (ix2 r (0 : Fin 1)) + blockSum (times m c) (weights m c) (rowOf t r) (t.val % 4) := by
  by_cases h1 : t.val % 4 = 3
  · rw [outsAt0_C m c t h0 h1]
    dsimp only
    refine (congrFun (last_point_column c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) (ix2 r (0 : Fin 1))).trans ?_
    exact step_at_point m c t _ r
  · rw [outsAt0_B m c t h0 h1]
    dsimp only
    refine (congrFun (middle_point_column c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2) (ix2 r (0 : Fin 1))).trans ?_
    exact step_at_point m c t _ r

/-- The last point of a run leaves in the output block what it leaves in the column. -/
theorem output_last (c : Dev nD) (t : Fin cfg0.N) (h1 : t.val % 4 = 3) :
    (outsAt0 m c t.val t.isLt).1 = (outsAt0 m c t.val t.isLt).2 := by
  have h0 : ¬t.val % 4 = 0 := by omega
  rw [outsAt0_C m c t h0 h1]
  dsimp only
  exact (last_point_output c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2).trans
    (last_point_column c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2).symm

/-- After the point that handles key block `n mod 4` the column holds, row by row, the sum over key blocks
    `0 … n mod 4` — by induction on the point. -/
theorem column_after (c : Dev nD) : ∀ (n : ℕ) (h : n < cfg0.N) (r : Fin 512),
    (outsAt0 m c n h).2 (ix2 r (0 : Fin 1)) = partialRisk (times m c) (weights m c) (rowOf ⟨n, h⟩ r) (n % 4)
  | 0, h, r => column_first m c ⟨0, h⟩ rfl r
  | n + 1, h, r => by
    by_cases h0 : (n + 1) % 4 = 0
    · rw [h0]; exact column_first m c ⟨n + 1, h⟩ h0 r
    · have hprev := column_after c n (Nat.lt_of_succ_lt h) r
      have hrow : rowOf ⟨n, Nat.lt_of_succ_lt h⟩ r = rowOf ⟨n + 1, h⟩ r := Fin.ext (by
        show 512 * (n / 4) + r.val = 512 * ((n + 1) / 4) + r.val
        omega)
      have hj : (n + 1) % 4 = n % 4 + 1 := by omega
      refine (column_next m c ⟨n + 1, h⟩ h0 r).trans ?_
      show (outsAt0 m c n _).2 (ix2 r (0 : Fin 1)) + _ = _
      rw [hprev, hrow, hj]
      rfl

/-- So the output block the last point of a run leaves holds, row by row, the whole risk-set sum. -/
theorem output_block (c : Dev nD) (t : Fin cfg0.N) (h1 : t.val % 4 = 3) (r : Fin 512) :
    (outsAt0 m c t.val t.isLt).1 (ix2 r (0 : Fin 1)) = risk (times m c) (weights m c) (rowOf t r) := by
  rw [output_last m c t h1, column_after m c t.val t.isLt r, h1]
  exact partialRisk_three _ _ _

end Cert.KernelIdeal.Risk

end
-- ==== Proof.Final.lean ====
/-
  The array of risk-set sums after the region, and the program's result. The output column is written back once per
  row block, by the fourth point of the block's run; those 32 blocks of 512 rows tile the 16384 rows, and each holds the
  rows' whole sums, so the column ends as the column of risk-set sums. The operations after the region lay it out as a
  vector again and pass from the sums to the loss.
-/
import proofs.«119896_j36077725286567_2_alg».proof.Proof.Gen.KernelIdeal.Frame
import proofs.«119896_j36077725286567_2_alg».proof.Proof.Accum
import proofs.«119896_j36077725286567_2_alg».proof.Proof.Blocks
import proofs.«119896_j36077725286567_2_alg».proof.Proof.RiskSpec
import proofs.«119896_j36077725286567_2_alg».proof.Proof.LibColumnLayout
import Idealize.ShloMosaic.Lib.ValueIdx
import Idealize.ShloMosaic.Lib.Pipeline.Value
import Idealize.ShloMosaic.Lib.StableHlo.Run
import Idealize.ShloMosaic.Lib.Tactic

set_option maxRecDepth 65536

noncomputable section

open Idealize.ShloMosaic Idealize.ShloMosaic.TcCoe Idealize.SL.Sem Idealize.ShloMosaic.ValueIdx
open Idealize.ShloMosaic.Pipeline (Dat)

namespace Cert.KernelIdeal.Risk

open Cert.KernelIdeal Cert.KernelIdeal.Gen Cert.RiskSpec Cert.ColumnLayout

variable (m : (ℓ : Loc nD τ sig) → Buf (Elt Ideal) ℓ) (ρ : Dev nD → PrngReg)

/-- The column of risk-set sums: row `i` holds the sum of row `i`. -/
def sumsColumn (c : Dev nD) : Buf (Elt Ideal) ((c : Thread nD τ).loc main_v8) :=
  (fun (y : S16384x1.Idx) => risk (times m c) (weights m c) ⟨(y 0).val, (y 0).isLt⟩ : S16384x1.Idx → Ideal .f32)

/-- What a writing-back point writes back is its block of the column of sums. -/
theorem flushed_eq (c : Dev nD) (t : Fin cfg0.N) (hf : (cfg0.win 3).flush t = true) :
    (dats m 0 c).flushed 3 t = ((cfg0.win 3).blk t).view.read (Elt Ideal) (sumsColumn m c) := by
  have h3 : t.val % 4 = 3 := (flush0_3 t).mp hf
  show (cfg0.win 3).cut (grid0.coords t) ((dats m 0 c).after 3 t) = _
  rw [after0_3]
  refine funext fun (y : S512x1.Idx) => ?_
  rw [View.read_apply]
  obtain ⟨r, u, rfl⟩ : ∃ (r : Fin 512) (u : Fin 1), y = ix2 r u := ⟨y 0, y 1, eq_ix2 y⟩
  obtain rfl : u = 0 := Subsingleton.elim _ _
  show (outsAt0 m c t.val t.isLt).1 (ix2 r (0 : Fin 1)) = sumsColumn m c (((cfg0.win 3).blk t).view.emb (ix2 r (0 : Fin 1)))
  rw [output_block m c t h3 r]
  unfold sumsColumn
  refine congrArg (risk (times m c) (weights m c)) (Fin.ext ?_)
  show 512 * (t.val / 4) + r.val = win0_3.index t 0 * 512 + 1 * r.val
  rw [(point_facts t).2.2.1]
  omega

/-- An index of the column is in point `t`'s block iff each coordinate is in the block's range on its axis. -/
theorem mem_block (t : Fin cfg0.N) (i : S16384x1.Idx) :
    i ∈ ((cfg0.win 3).blk t).view.set ↔ ∀ a : Fin 2, win0_3.index t a * S512x1.size a ≤ (i a).val
      ∧ (i a).val < win0_3.index t a * S512x1.size a + S512x1.size a := by
  show i ∈ ((View.whole main_v8).slice (win0_3.rect t)).set ↔ _
  rw [View.set_slice_whole, Rect.mem_set_unit]
  exact Iff.rfl

/-- Every row of the column is in the block some writing-back point writes: the fourth point of the row's run. -/
theorem covered (i : S16384x1.Idx) :
    ∃ t : Fin cfg0.N, (cfg0.win 3).flush t = true ∧ i ∈ ((cfg0.win 3).blk t).view.set := by
  have hi0 : (i 0).val < 16384 := (i 0).isLt
  have hi1 : (i 1).val < 1 := (i 1).isLt
  have hN : cfg0.N = 128 := N_0
  obtain ⟨t, hv⟩ : ∃ t : Fin cfg0.N, t.val = 4 * ((i 0).val / 512) + 3 := ⟨⟨4 * ((i 0).val / 512) + 3, by omega⟩, rfl⟩
  refine ⟨t, (flush0_3 t).mpr (by omega), ?_⟩
  rw [mem_block]
  intro a
  match a with
  | ⟨0, _⟩ =>
    show win0_3.index t 0 * 512 ≤ (i 0).val ∧ (i 0).val < win0_3.index t 0 * 512 + 512
    rw [(point_facts t).2.2.1]
    omega
  | ⟨1, _⟩ =>
    show win0_3.index t 1 * 1 ≤ (i 1).val ∧ (i 1).val < win0_3.index t 1 * 1 + 1
    rw [(point_facts t).2.2.2.1]
    omega

/-- So after the region the output column is the column of risk-set sums. -/
theorem column_final (c : Dev nD) : (dats m 0 c).arrAt 3 cfg0.N = sumsColumn m c :=
  (dats m 0 c).arrAt_eq_of_cover 3 (sumsColumn m c) (flushed_eq m c) covered

/-- The column of sums laid out as a vector again is the vector of risk-set sums of the two arguments. -/
theorem sums_vector (c : Dev nD) :
    shapeCast S16384 (sumsColumn m c) shapeCasts_S16384x1_S16384
      = riskOf (m ((c : Thread nD τ).loc main_arg0)) (m ((c : Thread nD τ).loc main_arg1)) := by
  refine funext fun (i : S16384.Idx) => ?_
  obtain ⟨k, rfl⟩ : ∃ k : Fin 16384, i = ix1 k := ⟨i 0, eq_ix1 i⟩
  exact (shapeCast_a1_a_apply _ shapeCasts_S16384x1_S16384 k).trans rfl

/-- The operations after the region, over any contents `W` of the buffers they read: the result is the passage from
    sums to loss applied to the first argument, the event indicators and the region's column laid out as a vector. -/
theorem tail_of (W : Valuation τ sig (Elt Ideal)) :
    StableHlo.after hostOps1 W (Proc.devRef .tc main_v15)
      = lossFrom (W (Proc.devRef .tc main_arg0)) (W (Proc.devRef .tc main_v3))
          (shapeCast S16384 (W (Proc.devRef .tc main_v8)) shapeCasts_S16384x1_S16384) := by
  after_results
  rfl

/-- The program's result: the loss of the risk-set sums of its two arguments. The operations after the region read the
    region's column (the column of sums), the first argument and the event indicators, none of which they overwrite. -/
theorem result_eq (c : Dev nD) :
    Pipeline.afterTail₀ cfgs (dats m) 0 (V0 m) [hostOps1] c main_v15
      = lossOf (m ((c : Thread nD τ).loc main_arg0)) (m ((c : Thread nD τ).loc main_arg1))
          (riskOf (m ((c : Thread nD τ).loc main_arg0)) (m ((c : Thread nD τ).loc main_arg1))) := by
  have e8 : Pipeline.withArrays (cfgs 0).spec c (V0 m c) (fun w => (dats m 0 c).arrAt w (cfgs 0).N)
      (Proc.devRef .tc main_v8) = sumsColumn m c :=
    (Pipeline.withArrays_arr spec0 launch0.win.arr_inj c _ _ 3).trans (column_final m c)
  have e0 : Pipeline.withArrays (cfgs 0).spec c (V0 m c) (fun w => (dats m 0 c).arrAt w (cfgs 0).N)
      (Proc.devRef .tc main_arg0) = m ((c : Thread nD τ).loc main_arg0) :=
    (Pipeline.withArrays_of_ne _ c (V0 m c) _ main_arg0 (by decide : ∀ w, Pipeline.arrRef spec0 w ≠ main_arg0)).trans
      (V_main_arg0 m c)
  have e3 : (Pipeline.withArrays (cfgs 0).spec c (V0 m c) (fun w => (dats m 0 c).arrAt w (cfgs 0).N)
      (Proc.devRef .tc main_v3) : S16384.Idx → Ideal .f32)
        = eventsOf (m ((c : Thread nD τ).loc main_arg1)) := by
    rw [Pipeline.withArrays_of_ne _ c (V0 m c) _ main_v3 (by decide : ∀ w, Pipeline.arrRef spec0 w ≠ main_v3)]
    exact event_mask m c
  unfold Pipeline.afterTail₀
  show StableHlo.after hostOps1 _ (Proc.devRef .tc main_v15) = _
  rw [tail_of, e8, e0, e3, sums_vector]
  rfl

/-- The idealized kernel's run: every weakly fair execution ends with the result at the loss of the risk-set sums of the
    two arguments, and the arguments unchanged. -/
theorem run : θ_run defs (onTc (τ := τ) (main (F := Ideal))) ⟨m, fun _ => 0, ρ⟩ fun r => ∀ c : Dev nD,
      r.2.mem ((c : Thread nD τ).loc main_v15)
        = lossOf (m ((c : Thread nD τ).loc main_arg0)) (m ((c : Thread nD τ).loc main_arg1))
            (riskOf (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v15 (Pipeline.mem_restRefs_of main_v15 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Risk

end
-- ==== Proof.RefRisk.lean ====
/-
  The reference computes the risk-set sums directly: it forms the 16384 × 16384 table whose entry `(i, k)` is the weight
  of key `k` times the 0/1 value of "time of `k` is at least time of `i`", and sums each row from zero. A weight times
  that 0/1 value is the weight where the comparison holds and zero where it does not, so row `i`'s sum is the risk-set
  sum of row `i`; the rest of the reference is the shared passage from the sums to the loss.
-/
import proofs.«119896_j36077725286567_2_alg».proof.Proof.Gen.ReferenceIdeal.Read
import proofs.«119896_j36077725286567_2_alg».proof.Proof.RiskSpec
import Idealize.ShloMosaic.Lib.ValueIdx
import Idealize.ShloMosaic.PureOps.Ideal.Laws

noncomputable section

open Idealize.ShloMosaic Idealize.ShloMosaic.ValueIdx

namespace Cert.ReferenceIdeal.RefRisk

open Cert.ReferenceIdeal Cert.ReferenceIdeal.Gen Cert.ReferenceIdeal.Read Cert.RiskSpec

/-- The reference's vector of row sums is the vector of risk-set sums. -/
theorem row_sums_eq (x0 x1 : (⟨S16384, .f32⟩ : BufTy).Contents (Elt Ideal)) :
    val_main_v14 (F := Ideal) x0 x1 = riskOf x0 x1 := by
  funext i
  have eW : ∀ k : Fin 16384, idx_main_v11 (idx_main_v12 (idx_main_v14 i k)) = ix1 k :=
    fun k => funext fun a => Fin.ext (by match a with | ⟨0, _⟩ => rfl)
  have eT : ∀ k : Fin 16384, idx_main_v5 (idx_main_v7 (idx_main_v14 i k)) = ix1 k :=
    fun k => funext fun a => Fin.ext (by match a with | ⟨0, _⟩ => rfl)
  have eI : ∀ k : Fin 16384, idx_main_v6 (idx_main_v8 (idx_main_v14 i k)) = ix1 (⟨(i 0).val, (i 0).isLt⟩ : Fin 16384) :=
    fun k => funext fun a => Fin.ext (by match a with | ⟨0, _⟩ => rfl)
  rw [val_main_v14_apply, val_main_cst_0_apply, Ideal.ofBits_def, Ideal.ofBits_zero_f32, zero_add]
  unfold riskOf risk
  refine Finset.sum_congr rfl fun k _ => ?_
  rw [val_main_v13_apply, val_main_v12_apply, val_main_v11_apply, val_main_v4_apply, val_main_v10_apply,
    val_main_v9_apply, val_main_v7_apply, val_main_v5_apply, val_main_v0_apply, val_main_v8_apply, val_main_v6_apply,
    val_main_v0_apply, eW, eT, eI]
  exact mul_indicator _ _ _

/-- The reference's result is the shared passage applied to its row sums. -/
theorem result_eq (x0 x1 : (⟨S16384, .f32⟩ : BufTy).Contents (Elt Ideal)) :
    val_main_v20 (F := Ideal) x0 x1 = lossOf x0 x1 (val_main_v14 (F := Ideal) x0 x1) := rfl

/-- So the reference's result is the loss of the risk-set sums. -/
theorem loss_eq (x0 x1 : (⟨S16384, .f32⟩ : BufTy).Contents (Elt Ideal)) :
    val_main_v20 (F := Ideal) x0 x1 = lossOf x0 x1 (riskOf x0 x1) := by
  rw [result_eq, row_sums_eq]

end Cert.ReferenceIdeal.RefRisk

end
-- ==== Proof.lean ====
/-
  The five claims. For each of 16384 rows the kernel sums the weights of the keys whose time is at least the row's time,
  four blocks of 4096 keys accumulated one after the other from zero, and the reference forms the same sums as the rows
  of a 16384 × 16384 table of weights times 0/1 comparison values; on the extended reals the two agree (a weight times
  one is the weight, times zero is zero, and a sum does not depend on how it is grouped), and both programs then pass
  from the sums to the loss by the same operations. The precondition is never opened: none of the laws used needs a
  finite value. The idealization rewrote no operation of the kernel.
-/
import proofs.«119896_j36077725286567_2_alg».proof.Defs
import proofs.«119896_j36077725286567_2_alg».proof.Proof.Gen.Kernel
import proofs.«119896_j36077725286567_2_alg».proof.Proof.Gen.Kernel.Skeleton
import proofs.«119896_j36077725286567_2_alg».proof.Proof.Gen.Kernel.Launch
import proofs.«119896_j36077725286567_2_alg».proof.Proof.Gen.Kernel.Points
import proofs.«119896_j36077725286567_2_alg».proof.Proof.Gen.Kernel.Frame
import proofs.«119896_j36077725286567_2_alg».proof.Proof.Gen.KernelIdeal
import proofs.«119896_j36077725286567_2_alg».proof.Proof.Gen.KernelIdeal.Skeleton
import proofs.«119896_j36077725286567_2_alg».proof.Proof.Gen.KernelIdeal.Launch
import proofs.«119896_j36077725286567_2_alg».proof.Proof.Gen.KernelIdeal.Points
import proofs.«119896_j36077725286567_2_alg».proof.Proof.Gen.KernelIdeal.Frame
import proofs.«119896_j36077725286567_2_alg».proof.Proof.Gen.ReferenceIdeal
import proofs.«119896_j36077725286567_2_alg».proof.Proof.Gen.Pre_finite_inputs
import proofs.«119896_j36077725286567_2_alg».proof.Proof.Gen.ReferenceIdeal.Run
import proofs.«119896_j36077725286567_2_alg».proof.Proof.Gen.ReferenceIdeal.Read
import proofs.«119896_j36077725286567_2_alg».proof.Proof.Final
import proofs.«119896_j36077725286567_2_alg».proof.Proof.RefRisk
import Idealize.ShloMosaic.Adequacy
import Idealize.ShloMosaic.Init

noncomputable section

namespace Cert.Proof

open Idealize.ShloMosaic Idealize.SL.Sem Cert.RiskSpec

/-- The kernel as printed runs and leaves its arguments as they were. -/
theorem frame_kernel : @Cert.frame_Kernel Cert.Kernel.Gen.facts Cert.Pre_finite_inputs.Gen.facts :=
  fun m ρ _ => Cert.Kernel.Gen.frame m ρ

/-- So does its idealization. -/
theorem frame_kernel_ideal : @Cert.frame_KernelIdeal Cert.KernelIdeal.Gen.facts Cert.Pre_finite_inputs.Gen.facts :=
  fun m ρ _ => Cert.KernelIdeal.Gen.frame m ρ

/-- So does the reference: its run, with what it says of the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- From memories that agree on the two arguments both idealized programs end at the loss of the risk-set sums of those
    arguments. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨_, Cert.KernelIdeal.Risk.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefRisk.loss_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
